-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x64 : Shape := ⟨2, ![10000, 64]⟩
abbrev S10000x128 : Shape := ⟨2, ![10000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 76
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .f32⟩
  | .hbm, ⟨64, _⟩ => ⟨S1700000, .f32⟩
  | .hbm, ⟨65, _⟩ => ⟨S_, .f32⟩
  | .hbm, ⟨66, _⟩ => ⟨S100000, .f32⟩
  | .hbm, ⟨67, _⟩ => ⟨S1700000x1, .i32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x128_S100000x128_1_0_0_1_n_n_wf : DotDims.WF S100000x64 S64x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, read at the last boundary.

  The program is three pipelined regions among stretches of host operations. The generated frame folds the
  buffer contents through those six segments — `Gen.W6 m ρ c` is what core c's buffers hold after the last
  region — and launches the segments with the library's theorem for a list of segments, keeping of the final
  state only that the arguments are unchanged. Here the same launch is stated with the whole final reading
  kept: every buffer that is not a scoped staging buffer ends at `Gen.W6`. The result buffer is one of them,
  so the program's value is `Gen.W6` at the result, which the value modules then read region by region.
-/
import proofs.«131423_j34316788695393_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and in the final state every unscoped buffer of
    every core holds the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result buffer and the six arguments read: the result ends at the last boundary's contents,
    the arguments as launched. -/
theorem run_result : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
    (run_boundary m ρ)

end Cert.KernelIdeal.RunValue

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibStripDot.lean ====
/-
  A matrix product computed one strip of rows at a time.

  Row r of a product X · W depends only on row r of X. So if a block xb holds the rows o, o+1, …, o+m−1 of X
  and wb is all of W, the (p, q) entry of the block product xb · wb — as a tpu.matmul into the zero accumulator
  computes it — is the (o+p, q) entry of the whole product X · W — as the host's dot_general computes it: both
  are the sum over k of X (o+p, k) · W (k, q) on the extended reals. No finiteness is needed: the two sums have
  the same terms.
-/
import proofs.«131423_j34316788695393_1_alg».proof.Proof.LibPlainDot

noncomputable section

open scoped BigOperators

namespace Idealize.ShloMosaic.StripDot

open Idealize.ShloMosaic Idealize.ShloMosaic.ValueIdx

variable {m M K N : Nat}

/-- The block product of a strip of rows is that strip of the whole product, entry by entry. -/
theorem matmul_strip_apply {φ₁ φ₂ : FTy} (prec prec' : Option ContractPrecision) (sched : HostSchedule)
    (X : FVec Ideal ⟨2, ![M, K]⟩ φ₁) (W : FVec Ideal ⟨2, ![K, N]⟩ φ₂)
    (xb : FVec Ideal ⟨2, ![m, K]⟩ φ₁) (wb : FVec Ideal ⟨2, ![K, N]⟩ φ₂)
    (o : Nat) (ho : ∀ p : Fin m, o + p.val < M)
    (hx : ∀ (p : Fin m) (k : Fin K), xb (ix2 p k) = X (ix2 ⟨o + p.val, ho p⟩ k))
    (hw : ∀ (k : Fin K) (q : Fin N), wb (ix2 k q) = W (ix2 k q)) (p : Fin m) (q : Fin N) :
    FloatOps.matmul (DotDims.plain m K N) prec xb wb (constant ⟨2, ![m, N]⟩ .f32 0x00000000#32) (ix2 p q)
      = FloatOps.dotGeneral (DotDims.plain M K N) prec' sched X W (ix2 ⟨o + p.val, ho p⟩ q) := by
  rw [PlainDot.matmul_zero_apply, PlainDot.dotGeneral_apply]
  exact Finset.sum_congr rfl fun k _ => by rw [hx p k, hw k q]

end Idealize.ShloMosaic.StripDot

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibRowCast.lean ====
/-
  A vector laid out as a one-row matrix: the reshape and the broadcast along axis 1 are the same array.

  Both place entry j of a vector of n entries at (0, j) of a 1 × n matrix.
-/
import Idealize.ShloMosaic.Lib.Pipeline.Value
import Idealize.ShloMosaic.Lib.ValueIdx

noncomputable section

namespace Idealize.ShloMosaic.RowCast

open Idealize.ShloMosaic Idealize.ShloMosaic.ValueIdx

variable {n : Nat} {α : Type}

/-- A vector reshaped to one row is the vector broadcast along axis 1 of a one-row matrix. -/
theorem shapeCast_row_eq_broadcastInDim (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast

end
-- ==== Proof.RefLayers.lean ====
/-
  The two later layers of the reference as functions of the aggregated features.

  `hidden A b W` is relu(A + b) · W and `biased A b` is A + b, each with the bias given as a one-row matrix that
  is spread over the 100000 rows: exactly the operations the reference applies to its aggregated features, so the
  reference's stages are these functions of its earlier stages by unfolding. Read at an index, relu(A + b) at
  (r, k) is max(A(r, k) + b(0, k), 0) and A + b at (r, q) is A(r, q) + b(0, q).
-/
import proofs.«131423_j34316788695393_1_alg».proof.Proof.Gen.ReferenceIdeal.Read
import proofs.«131423_j34316788695393_1_alg».proof.Proof.LibRowSpread
import Idealize.ShloMosaic.Lib.ValueIdx

set_option maxRecDepth 16384

noncomputable section

namespace Cert.ReferenceIdeal.Layers

open Cert.ReferenceIdeal Cert.ReferenceIdeal.Gen Idealize.ShloMosaic Idealize.ShloMosaic.ValueIdx

/-- relu(A + b): the bias row spread over the rows, added, and the maximum with the zero splat taken. -/
def act (A : FVec Ideal S100000x128 .f32) (brow : FVec Ideal S1x128 .f32) :
    FVec Ideal S100000x128 .f32 :=
  maximumf (F := Ideal) (addf (F := Ideal) A (broadcastInDim S100000x128 ![0, 1] bcast_S1x128_S100000x128_0_1 brow)) (Read.val_main_call0_v0 (F := Ideal))

/-- relu(A + b) · W. -/
def hidden (A : FVec Ideal S100000x128 .f32) (brow : FVec Ideal S1x128 .f32)
    (W : FVec Ideal S128x64 .f32) : FVec Ideal S100000x64 .f32 :=
  Host.dotGeneral (F := Ideal) dot_S100000x128_S128x64_S100000x64_1_0_0_1_n_n none (act A brow) W

/-- A + b. -/
def biased (A : FVec Ideal S100000x64 .f32) (brow : FVec Ideal S1x64 .f32) :
    FVec Ideal S100000x64 .f32 :=
  addf (F := Ideal) A (broadcastInDim S100000x64 ![0, 1] bcast_S1x64_S100000x64_0_1 brow)

/-- relu(A + b) at (r, k). -/
theorem act_apply (A : FVec Ideal S100000x128 .f32) (brow : FVec Ideal S1x128 .f32)
    (r : Fin 100000) (k : Fin 128) :
    act A brow (ix2 r k) = max (A (ix2 r k) + brow (ix2 (0 : Fin 1) k)) (Ideal.ofBits .f32 0x00000000#32) := by
  show max (A (ix2 r k) + broadcastInDim S100000x128 ![0, 1] bcast_S1x128_S100000x128_0_1 brow (ix2 r k))
      (broadcastInDim S100000x128 ![] bcast_S_S100000x128 (constant (F := Ideal) S_ .f32 0x00000000#32) (ix2 r k)) = _
  rw [RowSpread.rowInDim2_apply, RowSpread.scalarInDim_apply]
  rfl

/-- A + b at (r, q). -/
theorem biased_apply (A : FVec Ideal S100000x64 .f32) (brow : FVec Ideal S1x64 .f32)
    (r : Fin 100000) (q : Fin 64) :
    biased A brow (ix2 r q) = A (ix2 r q) + brow (ix2 (0 : Fin 1) q) := by
  show A (ix2 r q) + broadcastInDim S100000x64 ![0, 1] bcast_S1x64_S100000x64_0_1 brow (ix2 r q) = _
  rw [RowSpread.rowInDim2_apply]

/-- The reference's second product is `hidden` of its first aggregation, its first bias as a row, and W2. -/
theorem hidden_stage (x0 : (⟨S100000x64, .f32⟩ : BufTy).Contents (Elt Ideal)) (x1 : (⟨S2x1600000, .i32⟩ : BufTy).Contents (Elt Ideal))
    (x2 : (⟨S64x128, .f32⟩ : BufTy).Contents (Elt Ideal)) (x3 : (⟨S128, .f32⟩ : BufTy).Contents (Elt Ideal))
    (x4 : (⟨S128x64, .f32⟩ : BufTy).Contents (Elt Ideal)) :
    hidden (Read.val_main_v40 (F := Ideal) x0 x1 x2) (Read.val_main_v41 (F := Ideal) x3) x4
      = Read.val_main_v45 (F := Ideal) x0 x1 x2 x3 x4 := rfl

/-- The reference's result is `biased` of its second aggregation and its second bias as a row. -/
theorem biased_stage (x0 : (⟨S100000x64, .f32⟩ : BufTy).Contents (Elt Ideal)) (x1 : (⟨S2x1600000, .i32⟩ : BufTy).Contents (Elt Ideal))
    (x2 : (⟨S64x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    biased (Read.val_main_v78 (F := Ideal) x0 x1 x2 x3 x4) (Read.val_main_v79 (F := Ideal) x5)
      = Read.val_main_v81 (F := Ideal) x0 x1 x2 x3 x4 x5 := rfl

end Cert.ReferenceIdeal.Layers

end
-- ==== Proof.Region0.lean ====
/-
  The first region: x · W1, one strip of 10000 rows per grid point.

  At grid point t the body loads rows 10000 t … 10000 t + 9999 of x and all of W1, multiplies them (the change of
  float format before the product is the identity on the extended reals) and stores the 10000 × 128 product, which
  is written back as block t of the output. Row r of x · W1 depends only on row r of x, so block t of the output
  is block t of the whole product; the ten blocks tile the output, hence after the region the output array IS the
  whole product — the function the reference's dot_general computes — of whatever arrays the region was entered
  with.
-/
import proofs.«131423_j34316788695393_1_alg».proof.Proof.Gen.KernelIdeal.Frame
import proofs.«131423_j34316788695393_1_alg».proof.Proof.Gen.ReferenceIdeal.Read
import proofs.«131423_j34316788695393_1_alg».proof.Proof.LibStripDot
import proofs.«131423_j34316788695393_1_alg».proof.Proof.LibRowSpread
import proofs.«131423_j34316788695393_1_alg».proof.Proof.LibRowCast

import Idealize.ShloMosaic.Lib.ValueIdx
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the row blocks of x and of the product move with the point, the
    weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rows_lt (t : Fin cfg0.N) (p : Fin 10000) : t.val * 10000 + p.val < 100000 := by
  have h := t.isLt; have hN : cfg0.N = 10 := N_0; have := p.isLt; omega

/-- The body's product at an index of the block is the whole product X · W at the index o rows further down,
    when the loaded block holds rows o … o + 9999 of X and the loaded weights are W. -/
theorem pay0_at (X : (⟨Cert.ReferenceIdeal.S100000x64, .f32⟩ : BufTy).Contents (Elt Ideal))
    (W : (⟨Cert.ReferenceIdeal.S64x128, .f32⟩ : BufTy).Contents (Elt Ideal))
    (xb : Vec Ideal S10000x64 .f32) (wb : Vec Ideal S64x128 .f32)
    (o : Nat) (ho : ∀ p : Fin 10000, o + p.val < 100000)
    (hx : ∀ (p : Fin 10000) (k : Fin 64), xb (ix2 p k) = X (ix2 ⟨o + p.val, ho p⟩ k))
    (hw : ∀ (k : Fin 64) (q : Fin 128), wb (ix2 k q) = W (ix2 k q))
    (j : S10000x128.Idx) (i : S100000x128.Idx) (hi0 : (i 0).val = o + (j 0).val) (hi1 : (i 1).val = (j 1).val) :
    k0_pay1 (F := Ideal) xb wb j = Cert.ReferenceIdeal.Read.val_main_v7 (F := Ideal) X W i := by
  obtain ⟨p, q, rfl⟩ : ∃ (p : Fin 10000) (q : Fin 128), j = ix2 p q := ⟨j 0, j 1, eq_ix2 j⟩
  obtain rfl : i = ix2 ⟨o + p.val, ho p⟩ q := funext fun a => Fin.ext (by
    match a with
    | ⟨0, _⟩ => exact hi0
    | ⟨1, _⟩ => exact hi1)
  unfold Cert.ReferenceIdeal.Read.val_main_v7
  simp only [Host.dotGeneral]
  exact StripDot.matmul_strip_apply none none HostSchedule.single X W xb wb o ho hx hw p q

/-- Block t of x is rows 10000 t … 10000 t + 9999 of the array the region finds. -/
theorem rows_x (c : Dev nD) (t : Fin cfg0.N) (p : Fin 10000) (k : Fin 64) :
    (iblk0 V c 0 t : Vec Ideal S10000x64 .f32) (ix2 p k)
      = (V c main_arg0 : S100000x64.Idx → EReal) (ix2 ⟨t.val * 10000 + p.val, rows_lt t p⟩ k) := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The weights' block is the whole weight array at every point. -/
theorem all_w (c : Dev nD) (t : Fin cfg0.N) (k : Fin 64) (q : Fin 128) :
    (iblk0 V c 1 t : Vec Ideal S64x128 .f32) (ix2 k q) = (V c main_arg2 : S64x128.Idx → EReal) (ix2 k q) := by
  obtain ⟨-, -, e0, e1, -⟩ := idx0 t
  unfold iblk0
  rw [View.read_apply]
  show V c main_arg2 _ = V c main_arg2 _
  refine congrArg _ (funext fun a => Fin.ext ?_)
  match a with
  | ⟨0, _⟩ => show win0_1.index t (0 : Fin 2) * 64 + 1 * k.val = k.val; rw [e0]; omega
  | ⟨1, _⟩ => show win0_1.index t (1 : Fin 2) * 128 + 1 * q.val = q.val; rw [e1]; omega

/-- What point t writes back is block t of the whole product of the arrays the region finds. -/
theorem flushed0_eq (c : Dev nD) (t : Fin cfg0.N) :
    (dat0 V c).flushed 2 t = ((cfg0.win 2).blk t).view.read (Elt Ideal)
      (Cert.ReferenceIdeal.Read.val_main_v7 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x128) hz]
  obtain ⟨-, -, -, -, e0, e1⟩ := idx0 t
  funext j
  show k0_pay1 (F := Ideal) (iblk0 V c 0 t) (iblk0 V c 1 t) j
    = Cert.ReferenceIdeal.Read.val_main_v7 (F := Ideal) (V c main_arg0) (V c main_arg2) (((cfg0.win 2).blk t).view.emb j)
  refine pay0_at (V c main_arg0) (V c main_arg2) (iblk0 V c 0 t) (iblk0 V c 1 t) (t.val * 10000) (rows_lt t)
    (rows_x V c t) (all_w V c t) j _ ?_ ?_
  · show win0_2.index t (0 : Fin 2) * 10000 + 1 * (j 0).val = t.val * 10000 + (j 0).val; rw [e0]; omega
  · show win0_2.index t (1 : Fin 2) * 128 + 1 * (j 1).val = (j 1).val; rw [e1]; omega

/-- Every index of the product lies in the block of the point that owns its row. -/
theorem cover0 (i : S100000x128.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 128 := (i 1).isLt
  let t : Fin cfg0.N := ⟨(i 0).val / 10000, by rw [hN]; omega⟩
  obtain ⟨-, -, -, -, e0, e1⟩ := idx0 t
  have ht : t.val = (i 0).val / 10000 := rfl
  refine ⟨t, flush0_2 t, ?_⟩
  show i ∈ ((View.whole main_v27).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 128 ≤ (i 1).val ∧ (i 1).val < win0_2.index t (1 : Fin 2) * 128 + 128; rw [e1]; omega

/-- After the first region its output array is the whole product of the two arrays it was entered with. -/
theorem out0 (c : Dev nD) :
    (dat0 V c).arrAt 2 cfg0.N = Cert.ReferenceIdeal.Read.val_main_v7 (F := Ideal) (V c main_arg0) (V c main_arg2) :=
  (dat0 V c).arrAt_eq_of_cover 2 _ (fun t _ => flushed0_eq V c t) cover0

end Cert.KernelIdeal.Region0
end
-- ==== Proof.Region1.lean ====
/-
  The second region: relu(A + b1) · W2, one strip of 10000 rows per grid point.

  At grid point t the body loads rows 10000 t … 10000 t + 9999 of the aggregated features A, the bias as a one-row
  matrix and all of W2; it spreads the bias row over the strip's rows, adds, takes the maximum with the zero splat,
  multiplies by W2 (the changes of float format are the identity on the extended reals) and stores the 10000 × 64
  product, written back as block t of the output. Entry (p, k) of relu(strip + b) is max(A(10000 t + p, k) + b(k), 0),
  the (10000 t + p, k) entry of relu(A + b), and a row of a product depends only on that row of the left factor: block
  t of the output is block t of relu(A + b) · W2. The ten blocks tile the output, so after the region the output array
  IS relu(A + b) · W2 of the arrays the region was entered with.
-/
import proofs.«131423_j34316788695393_1_alg».proof.Proof.Gen.KernelIdeal.Frame
import proofs.«131423_j34316788695393_1_alg».proof.Proof.Gen.ReferenceIdeal.Read
import proofs.«131423_j34316788695393_1_alg».proof.Proof.LibStripDot
import proofs.«131423_j34316788695393_1_alg».proof.Proof.LibRowSpread
import proofs.«131423_j34316788695393_1_alg».proof.Proof.LibRowCast
import proofs.«131423_j34316788695393_1_alg».proof.Proof.RefLayers
import Idealize.ShloMosaic.Lib.ValueIdx
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the row blocks of the aggregated features and of the output move
    with the point, the bias row and the weights stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem rows_lt (t : Fin cfg1.N) (p : Fin 10000) : t.val * 10000 + p.val < 100000 := by
  have h := t.isLt; have hN : cfg1.N = 10 := N_1; have := p.isLt; omega

/-- What the body feeds the product: relu(a + b) of the loaded strip and the loaded bias row (the change of float
    format is the identity). -/
def stripAct (ab : Vec Ideal S10000x128 .f32) (bb : Vec Ideal S1x128 .f32) : FVec Ideal S10000x128 .bf16 :=
  truncf .bf16 (maximumf (F := Ideal) (addf (F := Ideal) (shapeCast S10000x128 ab shapeCasts_S10000x128_S10000x128)
      (broadcastTo S10000x128 (shapeCast S1x128 bb shapeCasts_S1x128_S1x128) broadcasts_S1x128_S10000x128))
      (broadcast S10000x128 (Scalar.ofBits (F := Ideal) .f32 0x00000000#32))) bitsLt_bf16_f32

/-- relu(a + b) of the strip at (p, k). -/
theorem stripAct_apply (ab : Vec Ideal S10000x128 .f32) (bb : Vec Ideal S1x128 .f32) (p : Fin 10000) (k : Fin 128) :
    stripAct ab bb (ix2 p k) = max (ab (ix2 p k) + bb (ix2 (0 : Fin 1) k)) (Ideal.ofBits .f32 0x00000000#32) := by
  show max (shapeCast S10000x128 ab shapeCasts_S10000x128_S10000x128 (ix2 p k)
      + broadcastTo S10000x128 (shapeCast S1x128 bb shapeCasts_S1x128_S1x128) broadcasts_S1x128_S10000x128 (ix2 p k)) _ = _
  rw [shapeCast_self, shapeCast_self, RowSpread.rowBcast_apply]
  rfl

/-- The body's stored value is the product of that activation with the loaded weights, into the zero accumulator. -/
theorem k1_pay1_eq (ab : Vec Ideal S10000x128 .f32) (bb : Vec Ideal S1x128 .f32) (wb : Vec Ideal S128x64 .f32) :
    k1_pay1 (F := Ideal) ab bb wb
      = FloatOps.matmul (DotDims.plain 10000 128 64) none (stripAct ab bb)
          (truncf .bf16 wb bitsLt_bf16_f32 : FVec Ideal S128x64 .bf16) (constant ⟨2, ![10000, 64]⟩ .f32 0x00000000#32) := rfl

/-- The body's product at an index of the block is relu(A + b) · W at the index o rows further down, when the
    loaded strip holds rows o … o + 9999 of A, the loaded row is b and the loaded weights are W. -/
theorem pay1_at (A : FVec Ideal Cert.ReferenceIdeal.S100000x128 .f32)
    (brow : FVec Ideal Cert.ReferenceIdeal.S1x128 .f32)
    (W : FVec Ideal Cert.ReferenceIdeal.S128x64 .f32)
    (ab : Vec Ideal S10000x128 .f32) (bb : Vec Ideal S1x128 .f32) (wb : Vec Ideal S128x64 .f32)
    (o : Nat) (ho : ∀ p : Fin 10000, o + p.val < 100000)
    (ha : ∀ (p : Fin 10000) (k : Fin 128), ab (ix2 p k) = A (ix2 ⟨o + p.val, ho p⟩ k))
    (hb : ∀ k : Fin 128, bb (ix2 (0 : Fin 1) k) = brow (ix2 (0 : Fin 1) k))
    (hw : ∀ (k : Fin 128) (q : Fin 64), wb (ix2 k q) = W (ix2 k q))
    (j : S10000x64.Idx) (i : S100000x64.Idx) (hi0 : (i 0).val = o + (j 0).val) (hi1 : (i 1).val = (j 1).val) :
    k1_pay1 (F := Ideal) ab bb wb j = Cert.ReferenceIdeal.Layers.hidden A brow W i := by
  obtain ⟨p, q, rfl⟩ : ∃ (p : Fin 10000) (q : Fin 64), j = ix2 p q := ⟨j 0, j 1, eq_ix2 j⟩
  obtain rfl : i = ix2 ⟨o + p.val, ho p⟩ q := funext fun a => Fin.ext (by
    match a with
    | ⟨0, _⟩ => exact hi0
    | ⟨1, _⟩ => exact hi1)
  rw [k1_pay1_eq]
  unfold Cert.ReferenceIdeal.Layers.hidden
  simp only [Host.dotGeneral]
  refine StripDot.matmul_strip_apply none none HostSchedule.single (Cert.ReferenceIdeal.Layers.act A brow) W
    (stripAct ab bb) (truncf .bf16 wb bitsLt_bf16_f32 : FVec Ideal S128x64 .bf16) o ho (fun p k => ?_) (fun k q => hw k q) p q
  rw [stripAct_apply, Cert.ReferenceIdeal.Layers.act_apply, ha, hb]

/-- Block t of the aggregated features is rows 10000 t … 10000 t + 9999 of the array the region finds. -/
theorem rows_a (c : Dev nD) (t : Fin cfg1.N) (p : Fin 10000) (k : Fin 128) :
    (iblk1 V c 0 t : Vec Ideal S10000x128 .f32) (ix2 p k)
      = (V c main_v40 : S100000x128.Idx → EReal) (ix2 ⟨t.val * 10000 + p.val, rows_lt t p⟩ k) := by
  obtain ⟨e0, e1, -⟩ := idx1 t
  unfold iblk1
  rw [View.read_apply]
  show V c main_v40 _ = V c main_v40 _
  refine congrArg _ (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 128 + 1 * k.val = k.val; rw [e1]; omega

/-- The bias row's block is the whole row at every point. -/
theorem row_b (c : Dev nD) (t : Fin cfg1.N) (k : Fin 128) :
    (iblk1 V c 1 t : Vec Ideal S1x128 .f32) (ix2 (0 : Fin 1) k) = (V c main_v41 : S1x128.Idx → EReal) (ix2 (0 : Fin 1) k) := by
  obtain ⟨-, -, e0, e1, -⟩ := idx1 t
  unfold iblk1
  rw [View.read_apply]
  show V c main_v41 _ = V c main_v41 _
  refine congrArg _ (funext fun a => Fin.ext ?_)
  match a with
  | ⟨0, _⟩ => show win1_1.index t (0 : Fin 2) * 1 + 1 * 0 = 0; rw [e0]
  | ⟨1, _⟩ => show win1_1.index t (1 : Fin 2) * 128 + 1 * k.val = k.val; rw [e1]; omega

/-- The weights' block is the whole weight array at every point. -/
theorem all_w (c : Dev nD) (t : Fin cfg1.N) (k : Fin 128) (q : Fin 64) :
    (iblk1 V c 2 t : Vec Ideal S128x64 .f32) (ix2 k q) = (V c main_arg4 : S128x64.Idx → EReal) (ix2 k q) := by
  obtain ⟨-, -, -, -, e0, e1, -⟩ := idx1 t
  unfold iblk1
  rw [View.read_apply]
  show V c main_arg4 _ = V c main_arg4 _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 64 + 1 * q.val = q.val; rw [e1]; omega

/-- What point t writes back is block t of relu(A + b) · W of the arrays the region finds. -/
theorem flushed1_eq (c : Dev nD) (t : Fin cfg1.N) :
    (dat1 V c).flushed 3 t = ((cfg1.win 3).blk t).view.read (Elt Ideal)
      (Cert.ReferenceIdeal.Layers.hidden (V c main_v40) (V c main_v41) (V c main_arg4)) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x64) hz]
  obtain ⟨-, -, -, -, -, -, e0, e1⟩ := idx1 t
  funext j
  show k1_pay1 (F := Ideal) (iblk1 V c 0 t) (iblk1 V c 1 t) (iblk1 V c 2 t) j
    = Cert.ReferenceIdeal.Layers.hidden (V c main_v40) (V c main_v41) (V c main_arg4) (((cfg1.win 3).blk t).view.emb j)
  refine pay1_at (V c main_v40) (V c main_v41) (V c main_arg4) (iblk1 V c 0 t) (iblk1 V c 1 t) (iblk1 V c 2 t)
    (t.val * 10000) (rows_lt t) (rows_a V c t) (row_b V c t) (all_w V c t) j _ ?_ ?_
  · show win1_3.index t (0 : Fin 2) * 10000 + 1 * (j 0).val = t.val * 10000 + (j 0).val; rw [e0]; omega
  · show win1_3.index t (1 : Fin 2) * 64 + 1 * (j 1).val = (j 1).val; rw [e1]; omega

/-- Every index of the output lies in the block of the point that owns its row. -/
theorem cover1 (i : S100000x64.Idx) :
    ∃ t : Fin cfg1.N, (cfg1.win 3).flush t = true ∧ i ∈ ((cfg1.win 3).blk t).view.set := by
  have hN : cfg1.N = 10 := N_1
  have hi0 : (i 0).val < 100000 := (i 0).isLt
  have hi1 : (i 1).val < 64 := (i 1).isLt
  let t : Fin cfg1.N := ⟨(i 0).val / 10000, by rw [hN]; omega⟩
  obtain ⟨-, -, -, -, -, -, e0, e1⟩ := idx1 t
  have ht : t.val = (i 0).val / 10000 := rfl
  refine ⟨t, flush1_3 t, ?_⟩
  show i ∈ ((View.whole main_v42).slice (win1_3.rect t)).set
  rw [View.set_slice_whole, Rect.mem_set_unit]
  intro a
  match a with
  | ⟨0, _⟩ => show win1_3.index t (0 : Fin 2) * 10000 ≤ (i 0).val ∧ (i 0).val < win1_3.index t (0 : Fin 2) * 10000 + 10000; rw [e0, ht]; omega
  | ⟨1, _⟩ => show win1_3.index t (1 : Fin 2) * 64 ≤ (i 1).val ∧ (i 1).val < win1_3.index t (1 : Fin 2) * 64 + 64; rw [e1]; omega

/-- After the second region its output array is relu(A + b) · W of the three arrays it was entered with. -/
theorem out1 (c : Dev nD) :
    (dat1 V c).arrAt 3 cfg1.N = Cert.ReferenceIdeal.Layers.hidden (V c main_v40) (V c main_v41) (V c main_arg4) :=
  (dat1 V c).arrAt_eq_of_cover 3 _ (fun t _ => flushed1_eq V c t) cover1

end Cert.KernelIdeal.Region1
end
-- ==== Proof.Region2.lean ====
/-
  The third region: A + b2, one strip of 10000 rows per grid point.

  At grid point t the body loads rows 10000 t … 10000 t + 9999 of the aggregated features A and the bias as a
  one-row matrix, spreads the row over the strip's rows, adds, and stores the sum, written back as block t of the
  output. Entry (p, q) of the stored strip is A(10000 t + p, q) + b(q), the (10000 t + p, q) entry of A + b; the ten
  blocks tile the output, so after the region the output array IS A + b of the arrays the region was entered with.
-/
import proofs.«131423_j34316788695393_1_alg».proof.Proof.Gen.KernelIdeal.Frame
import proofs.«131423_j34316788695393_1_alg».proof.Proof.Gen.ReferenceIdeal.Read
import proofs.«131423_j34316788695393_1_alg».proof.Proof.LibStripDot
import proofs.«131423_j34316788695393_1_alg».proof.Proof.LibRowSpread
import proofs.«131423_j34316788695393_1_alg».proof.Proof.LibRowCast
import proofs.«131423_j34316788695393_1_alg».proof.Proof.RefLayers
import Idealize.ShloMosaic.Lib.ValueIdx
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the ten grid points: the row blocks of the aggregated features and of the output move
    with the point, the bias row stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem rows_lt (t : Fin cfg2.N) (p : Fin 10000) : t.val * 10000 + p.val < 100000 := by
  have h := t.isLt; have hN : cfg2.N = 10 := N_2; have := p.isLt; omega

/-- The body's sum at an index of the block is A + b at the index o rows further down, when the loaded strip
    holds rows o … o + 9999 of A and the loaded row is b. -/
theorem pay2_at (A : FVec Ideal Cert.ReferenceIdeal.S100000x64 .f32)
    (brow : FVec Ideal Cert.ReferenceIdeal.S1x64 .f32)
    (ab : Vec Ideal S10000x64 .f32) (bb : Vec Ideal S1x64 .f32)
    (o : Nat) (ho : ∀ p : Fin 10000, o + p.val < 100000)
    (ha : ∀ (p : Fin 10000) (q : Fin 64), ab (ix2 p q) = A (ix2 ⟨o + p.val, ho p⟩ q))
    (hb : ∀ q : Fin 64, bb (ix2 (0 : Fin 1) q) = brow (ix2 (0 : Fin 1) q))
    (j : S10000x64.Idx) (i : S100000x64.Idx) (hi0 : (i 0).val = o + (j 0).val) (hi1 : (i 1).val = (j 1).val) :
    k2_pay1 (F := Ideal) ab bb j = Cert.ReferenceIdeal.Layers.biased A brow i := by
  obtain ⟨p, q, rfl⟩ : ∃ (p : Fin 10000) (q : Fin 64), j = ix2 p q := ⟨j 0, j 1, eq_ix2 j⟩
  obtain rfl : i = ix2 ⟨o + p.val, ho p⟩ q := funext fun a => Fin.ext (by
    match a with
    | ⟨0, _⟩ => exact hi0
    | ⟨1, _⟩ => exact hi1)
  rw [Cert.ReferenceIdeal.Layers.biased_apply]
  show shapeCast S10000x64 ab shapeCasts_S10000x64_S10000x64 (ix2 p q)
      + broadcastTo S10000x64 (shapeCast S1x64 bb shapeCasts_S1x64_S1x64) broadcasts_S1x64_S10000x64 (ix2 p q) = _
  rw [shapeCast_self, shapeCast_self, RowSpread.rowBcast_apply, ha, hb]

/-- Block t of the aggregated features is rows 10000 t … 10000 t + 9999 of the array the region finds. -/
theorem rows_a (c : Dev nD) (t : Fin cfg2.N) (p : Fin 10000) (q : Fin 64) :
    (iblk2 V c 0 t : Vec Ideal S10000x64 .f32) (ix2 p q)
      = (V c main_v55 : S100000x64.Idx → EReal) (ix2 ⟨t.val * 10000 + p.val, rows_lt t p⟩ q) := by
  obtain ⟨e0, e1, -⟩ := idx2 t
  unfold iblk2
  rw [View.read_apply]
  show V c main_v55 _ = V c main_v55 _
  refine congrArg _ (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 64 + 1 * q.val = q.val; rw [e1]; omega

/-- The bias row's block is the whole row at every point. -/
theorem row_b (c : Dev nD) (t : Fin cfg2.N) (q : Fin 64) :
    (iblk2 V c 1 t : Vec Ideal S1x64 .f32) (ix2 (0 : Fin 1) q) = (V c main_v56 : S1x64.Idx → EReal) (ix2 (0 : Fin 1) q) := by
  obtain ⟨-, -, e0, e1, -⟩ := idx2 t
  unfold iblk2
  rw [View.read_apply]
  show V c main_v56 _ = V c main_v56 _
  refine congrArg _ (funext fun a => Fin.ext ?_)
  match a with
  | ⟨0, _⟩ => show win2_1.index t (0 : Fin 2) * 1 + 1 * 0 = 0; rw [e0]
  | ⟨1, _⟩ => show win2_1.index t (1 : Fin 2) * 64 + 1 * q.val = q.val; rw [e1]; omega

/-- What point t writes back is block t of A + b of the arrays the region finds. -/
theorem flushed2_eq (c : Dev nD) (t : Fin cfg2.N) :
    (dat2 V c).flushed 2 t = ((cfg2.win 2).blk t).view.read (Elt Ideal)
      (Cert.ReferenceIdeal.Layers.biased (V c main_v55) (V c main_v56)) := by
  show (cfg2.win 2).cut (grid2.coords t) ((dat2 V c).after 2 t) = _
  rw [after2_2]
  unfold out2_2
  rw [View.canon_unit_zero hz]
  simp only [View.ld_unit_zero (S := S10000x64) hz, View.ld_unit_zero (S := S1x64) hz]
  obtain ⟨-, -, -, -, e0, e1⟩ := idx2 t
  funext j
  show k2_pay1 (F := Ideal) (iblk2 V c 0 t) (iblk2 V c 1 t) j
    = Cert.ReferenceIdeal.Layers.biased (V c main_v55) (V c main_v56) (((cfg2.win 2).blk t).view.emb j)
  refine pay2_at (V c main_v55) (V c main_v56) (iblk2 V c 0 t) (iblk2 V c 1 t)
    (t.val * 10000) (rows_lt t) (rows_a V c t) (row_b V c t) j _ ?_ ?_
  · show win2_2.index t (0 : Fin 2) * 10000 + 1 * (j 0).val = t.val * 10000 + (j 0).val; rw [e0]; omega
  · show win2_2.index t (1 : Fin 2) * 64 + 1 * (j 1).val = (j 1).val; rw [e1]; omega

/-- Every index of the output lies in the block of the point that owns its row. -/
theorem cover2 (i : S100000x64.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 64 := (i 1).isLt
  let t : Fin cfg2.N := ⟨(i 0).val / 10000, by rw [hN]; omega⟩
  obtain ⟨-, -, -, -, e0, e1⟩ := idx2 t
  have ht : t.val = (i 0).val / 10000 := rfl
  refine ⟨t, flush2_2 t, ?_⟩
  show i ∈ ((View.whole main_v57).slice (win2_2.rect t)).set
  rw [View.set_slice_whole, Rect.mem_set_unit]
  intro a
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 64 ≤ (i 1).val ∧ (i 1).val < win2_2.index t (1 : Fin 2) * 64 + 64; rw [e1]; omega

/-- After the third region its output array is A + b of the two arrays it was entered with. -/
theorem out2 (c : Dev nD) :
    (dat2 V c).arrAt 2 cfg2.N = Cert.ReferenceIdeal.Layers.biased (V c main_v55) (V c main_v56) :=
  (dat2 V c).arrAt_eq_of_cover 2 _ (fun t _ => flushed2_eq V c t) cover2

end Cert.KernelIdeal.Region2
end
-- ==== Proof.Stages.lean ====
/-
  What the kernel's buffers hold at each boundary between its six segments, as functions of the six arguments.

  The kernel's @main is host operations, a region, host operations, a region, host operations, a region. The host
  operations are the reference's own — the edge lists with the self loops appended, the degree by a scatter-add of
  ones, its inverse square root gathered at both ends of every edge and multiplied, the gather of a layer's rows by
  source node, their scaling, the scatter-add into the target nodes — applied to the same operands, and each region
  leaves in its output the whole-array function the reference applies at that place (x · W1; relu(A + b1) · W2;
  A + b2). So, boundary by boundary, each buffer the next segment reads holds the reference's stage of the same
  name, and the result buffer ends holding the reference's result. Two spellings differ and are equal as arrays:
  a bias vector reshaped to one row against the vector broadcast along the columns of a one-row matrix, and the
  normalisation, which the reference computes once per layer and the kernel once.
-/
import proofs.«131423_j34316788695393_1_alg».proof.Proof.Gen.KernelIdeal.Frame
import proofs.«131423_j34316788695393_1_alg».proof.Proof.Gen.ReferenceIdeal.Read
import proofs.«131423_j34316788695393_1_alg».proof.Proof.LibStripDot
import proofs.«131423_j34316788695393_1_alg».proof.Proof.LibRowSpread
import proofs.«131423_j34316788695393_1_alg».proof.Proof.LibRowCast
import proofs.«131423_j34316788695393_1_alg».proof.Proof.RefLayers
import proofs.«131423_j34316788695393_1_alg».proof.Proof.Region0
import proofs.«131423_j34316788695393_1_alg».proof.Proof.Region1
import proofs.«131423_j34316788695393_1_alg».proof.Proof.Region2
import Idealize.ShloMosaic.Lib.StableHlo.Run
import Idealize.ShloMosaic.Lib.ValueIdx
import Idealize.ShloMosaic.Lib.Pipeline.Value

set_option maxRecDepth 16384

noncomputable section

namespace Cert.KernelIdeal.Stages

open Idealize.ShloMosaic Idealize.ShloMosaic.TcCoe Idealize.ShloMosaic.ValueIdx Idealize.SL.Sem
open Idealize.ShloMosaic.Pipeline (Dat Cfg Window)
open Cert.KernelIdeal Cert.KernelIdeal.Gen Idealize.ShloMosaic.StableHlo

variable (m : (ℓ : Loc nD τ sig) → Buf (Elt Ideal) ℓ) (ρ : Dev nD → PrngReg)

/-- The six argument arrays as launched, on core c. -/
abbrev X0 (c : Dev nD) : (⟨Cert.ReferenceIdeal.S100000x64, .f32⟩ : BufTy).Contents (Elt Ideal) := m ((c.tc : Thread nD τ).loc main_arg0)
abbrev X1 (c : Dev nD) : (⟨Cert.ReferenceIdeal.S2x1600000, .i32⟩ : BufTy).Contents (Elt Ideal) := m ((c.tc : Thread nD τ).loc main_arg1)
abbrev X2 (c : Dev nD) : (⟨Cert.ReferenceIdeal.S64x128, .f32⟩ : BufTy).Contents (Elt Ideal) := m ((c.tc : Thread nD τ).loc main_arg2)
abbrev X3 (c : Dev nD) : (⟨Cert.ReferenceIdeal.S128, .f32⟩ : BufTy).Contents (Elt Ideal) := m ((c.tc : Thread nD τ).loc main_arg3)
abbrev X4 (c : Dev nD) : (⟨Cert.ReferenceIdeal.S128x64, .f32⟩ : BufTy).Contents (Elt Ideal) := m ((c.tc : Thread nD τ).loc main_arg4)
abbrev X5 (c : Dev nD) : (⟨Cert.ReferenceIdeal.S64, .f32⟩ : BufTy).Contents (Elt Ideal) := m ((c.tc : Thread nD τ).loc main_arg5)

/-! ## Before the first region: the edge lists and the normalisation -/

theorem b1_arg0 (c : Dev nD) : W1 m ρ c (Proc.devRef .tc main_arg0) = X0 m c := by
  show StableHlo.after hostOps0 (W0 m ρ c) (Proc.devRef .tc main_arg0) = _
  after_results_simp <;> rfl
theorem b1_arg2 (c : Dev nD) : W1 m ρ c (Proc.devRef .tc main_arg2) = X2 m c := by
  show StableHlo.after hostOps0 (W0 m ρ c) (Proc.devRef .tc main_arg2) = _
  after_results_simp <;> rfl
theorem b1_arg3 (c : Dev nD) : W1 m ρ c (Proc.devRef .tc main_arg3) = X3 m c := by
  show StableHlo.after hostOps0 (W0 m ρ c) (Proc.devRef .tc main_arg3) = _
  after_results_simp <;> rfl
theorem b1_arg4 (c : Dev nD) : W1 m ρ c (Proc.devRef .tc main_arg4) = X4 m c := by
  show StableHlo.after hostOps0 (W0 m ρ c) (Proc.devRef .tc main_arg4) = _
  after_results_simp <;> rfl
theorem b1_arg5 (c : Dev nD) : W1 m ρ c (Proc.devRef .tc main_arg5) = X5 m c := by
  show StableHlo.after hostOps0 (W0 m ρ c) (Proc.devRef .tc main_arg5) = _
  after_results_simp <;> rfl

/-- The source node of every edge, the self loops appended: the reference's list. -/
theorem b1_src (c : Dev nD) : W1 m ρ c (Proc.devRef .tc main_v3) = Cert.ReferenceIdeal.Read.val_main_v3 (F := Ideal) (X1 m c) := by
  show StableHlo.after hostOps0 (W0 m ρ c) (Proc.devRef .tc main_v3) = _
  after_results_simp <;> rfl
/-- The target node of every edge, the self loops appended: the reference's list. -/
theorem b1_dst (c : Dev nD) : W1 m ρ c (Proc.devRef .tc main_v6) = Cert.ReferenceIdeal.Read.val_main_v6 (F := Ideal) (X1 m c) := by
  show StableHlo.after hostOps0 (W0 m ρ c) (Proc.devRef .tc main_v6) = _
  after_results_simp <;> rfl
/-- The per-edge normalisation 1/sqrt(deg src) · 1/sqrt(deg dst): the reference's, which it computes once per layer
    by the same operations. -/
theorem b1_norm (c : Dev nD) : W1 m ρ c (Proc.devRef .tc main_v26) = Cert.ReferenceIdeal.Read.val_main_v27 (F := Ideal) (X1 m c) := by
  show StableHlo.after hostOps0 (W0 m ρ c) (Proc.devRef .tc main_v26) = _
  after_results_simp <;> rfl

/-! ## After the first region: x · W1 -/

theorem b2_prod (c : Dev nD) : W2 m ρ c (Proc.devRef .tc main_v27)
    = Cert.ReferenceIdeal.Read.val_main_v7 (F := Ideal) (X0 m c) (X2 m c) := by
  refine (W2_arr m ρ c 2).trans ((Region0.out0 (V1 m ρ) c).trans ?_)
  show Cert.ReferenceIdeal.Read.val_main_v7 (F := Ideal) (W1 m ρ c (Proc.devRef .tc main_arg0)) (W1 m ρ c (Proc.devRef .tc main_arg2)) = _
  rw [b1_arg0 m ρ c, b1_arg2 m ρ c]

/-! ## Before the second region: the first aggregation, and the first bias as a row -/

set_option maxHeartbeats 2000000 in
/-- Gathering the rows of x · W1 by source node, scaling each by its edge's normalisation and summing into the target
    nodes: the reference's first aggregation, the same host operations on the same operands. -/
theorem b3_agg (c : Dev nD) : W3 m ρ c (Proc.devRef .tc main_v40)
    = Cert.ReferenceIdeal.Read.val_main_v40 (F := Ideal) (X0 m c) (X1 m c) (X2 m c) := by
  show StableHlo.after hostOps1 (W2 m ρ c) (Proc.devRef .tc main_v40) = _
  after_results_simp
  rw [b2_prod m ρ c, W2_of_ne m ρ c main_v3 (by decide), W2_of_ne m ρ c main_v6 (by decide), W2_of_ne m ρ c main_v26 (by decide),
    b1_src m ρ c, b1_dst m ρ c, b1_norm m ρ c]
  rfl

/-- The bias vector reshaped to one row is the vector broadcast along the columns of a one-row matrix. -/
theorem b3_brow (c : Dev nD) : W3 m ρ c (Proc.devRef .tc main_v41)
    = Cert.ReferenceIdeal.Read.val_main_v41 (F := Ideal) (X3 m c) := by
  show StableHlo.after hostOps1 (W2 m ρ c) (Proc.devRef .tc main_v41) = _
  after_results
  rw [W2_of_ne m ρ c main_arg3 (by decide), b1_arg3 m ρ c]
  exact RowCast.shapeCast_row_eq_broadcastInDim _ _ _

theorem b3_w (c : Dev nD) : W3 m ρ c (Proc.devRef .tc main_arg4) = X4 m c := by
  show StableHlo.after hostOps1 (W2 m ρ c) (Proc.devRef .tc main_arg4) = _
  after_results
  rw [W2_of_ne m ρ c main_arg4 (by decide), b1_arg4 m ρ c]
theorem b3_src (c : Dev nD) : W3 m ρ c (Proc.devRef .tc main_v3) = Cert.ReferenceIdeal.Read.val_main_v3 (F := Ideal) (X1 m c) := by
  show StableHlo.after hostOps1 (W2 m ρ c) (Proc.devRef .tc main_v3) = _
  after_results
  rw [W2_of_ne m ρ c main_v3 (by decide), b1_src m ρ c]
theorem b3_dst (c : Dev nD) : W3 m ρ c (Proc.devRef .tc main_v6) = Cert.ReferenceIdeal.Read.val_main_v6 (F := Ideal) (X1 m c) := by
  show StableHlo.after hostOps1 (W2 m ρ c) (Proc.devRef .tc main_v6) = _
  after_results
  rw [W2_of_ne m ρ c main_v6 (by decide), b1_dst m ρ c]
theorem b3_norm (c : Dev nD) : W3 m ρ c (Proc.devRef .tc main_v26) = Cert.ReferenceIdeal.Read.val_main_v27 (F := Ideal) (X1 m c) := by
  show StableHlo.after hostOps1 (W2 m ρ c) (Proc.devRef .tc main_v26) = _
  after_results
  rw [W2_of_ne m ρ c main_v26 (by decide), b1_norm m ρ c]
theorem b3_arg5 (c : Dev nD) : W3 m ρ c (Proc.devRef .tc main_arg5) = X5 m c := by
  show StableHlo.after hostOps1 (W2 m ρ c) (Proc.devRef .tc main_arg5) = _
  after_results
  rw [W2_of_ne m ρ c main_arg5 (by decide), b1_arg5 m ρ c]

/-! ## After the second region: relu(agg1 + b1) · W2 -/

theorem b4_prod (c : Dev nD) : W4 m ρ c (Proc.devRef .tc main_v42)
    = Cert.ReferenceIdeal.Read.val_main_v45 (F := Ideal) (X0 m c) (X1 m c) (X2 m c) (X3 m c) (X4 m c) := by
  refine (W4_arr m ρ c 3).trans ((Region1.out1 (V3 m ρ) c).trans ?_)
  show Cert.ReferenceIdeal.Layers.hidden (W3 m ρ c (Proc.devRef .tc main_v40)) (W3 m ρ c (Proc.devRef .tc main_v41))
      (W3 m ρ c (Proc.devRef .tc main_arg4)) = _
  rw [b3_agg m ρ c, b3_brow m ρ c, b3_w m ρ c]
  exact Cert.ReferenceIdeal.Layers.hidden_stage _ _ _ _ _

/-! ## Before the third region: the second aggregation, and the second bias as a row -/

set_option maxHeartbeats 2000000 in
/-- The reference's second aggregation: its normalisation, computed a second time by the same operations, is the
    one computed once here. -/
theorem b5_agg (c : Dev nD) : W5 m ρ c (Proc.devRef .tc main_v55)
    = Cert.ReferenceIdeal.Read.val_main_v78 (F := Ideal) (X0 m c) (X1 m c) (X2 m c) (X3 m c) (X4 m c) := by
  show StableHlo.after hostOps2 (W4 m ρ c) (Proc.devRef .tc main_v55) = _
  after_results_simp
  rw [b4_prod m ρ c, W4_of_ne m ρ c main_v3 (by decide), W4_of_ne m ρ c main_v6 (by decide), W4_of_ne m ρ c main_v26 (by decide),
    b3_src m ρ c, b3_dst m ρ c, b3_norm m ρ c]
  rfl

theorem b5_brow (c : Dev nD) : W5 m ρ c (Proc.devRef .tc main_v56)
    = Cert.ReferenceIdeal.Read.val_main_v79 (F := Ideal) (X5 m c) := by
  show StableHlo.after hostOps2 (W4 m ρ c) (Proc.devRef .tc main_v56) = _
  after_results
  rw [W4_of_ne m ρ c main_arg5 (by decide), b3_arg5 m ρ c]
  exact RowCast.shapeCast_row_eq_broadcastInDim _ _ _

/-! ## After the third region: the result -/

/-- The result array the kernel ends with is the reference's result as a function of the six arguments. -/
theorem result_eq (c : Dev nD) : W6 m ρ c (Proc.devRef .tc main_v57)
    = Cert.ReferenceIdeal.Read.val_main_v81 (F := Ideal) (X0 m c) (X1 m c) (X2 m c) (X3 m c) (X4 m c) (X5 m c) := by
  refine (W6_arr m ρ c 2).trans ((Region2.out2 (V5 m ρ) c).trans ?_)
  show Cert.ReferenceIdeal.Layers.biased (W5 m ρ c (Proc.devRef .tc main_v55)) (W5 m ρ c (Proc.devRef .tc main_v56)) = _
  rw [b5_agg m ρ c, b5_brow m ρ c]
  exact Cert.ReferenceIdeal.Layers.biased_stage _ _ _ _ _ _

end Cert.KernelIdeal.Stages
end
-- ==== Proof.lean ====
/-
  A two-layer graph convolution: the kernel against its reference, over the extended reals.

  Both programs compute, from node features x, an edge list, weights W1, W2 and biases b1, b2,

      out = S (relu (S (x · W1) + b1) · W2) + b2,

  where S is the normalised adjacency with self loops: (S h)(v) is the sum, over the edges u → v and the loop at v,
  of h(u) / sqrt(deg u · deg v). The reference is host operations throughout. The kernel keeps the sparse part —
  building the edge lists, the degrees, the normalisation, each gather, scaling and scatter-add — as the same host
  operations on the same operands, and computes the three dense parts in pipelined regions over ten strips of 10000
  rows: x · W1; relu(A + b1) · W2; A + b2 (its changes of float format around the products are the identity on the
  extended reals). A row of a product depends only on that row of the left factor and the other operations act
  entry by entry, so each strip's output is that strip of the whole-array result and the ten strips tile it: after
  each region its output array is the reference's stage (Region0, Region1, Region2). Carried through the host
  stretches (Stages), the kernel's result array is the reference's result as one function of the six arguments.
  No step moves a factor across a sum or cancels anything, so nothing here needs the inputs to be finite, and the
  integer edge list may hold anything: out-of-range entries go through the same gathers and scatters on both sides.

  The three frames are the generated ones (the reference's is its generated run with the result dropped); the
  idealization rewrote no operation, so its claim is trivial.
-/
import proofs.«131423_j34316788695393_1_alg».proof.Defs
import proofs.«131423_j34316788695393_1_alg».proof.Proof.Gen.Kernel
import proofs.«131423_j34316788695393_1_alg».proof.Proof.Gen.Kernel.Skeleton
import proofs.«131423_j34316788695393_1_alg».proof.Proof.Gen.Kernel.Launch
import proofs.«131423_j34316788695393_1_alg».proof.Proof.Gen.Kernel.Points
import proofs.«131423_j34316788695393_1_alg».proof.Proof.Gen.Kernel.Frame
import proofs.«131423_j34316788695393_1_alg».proof.Proof.Gen.KernelIdeal
import proofs.«131423_j34316788695393_1_alg».proof.Proof.Gen.KernelIdeal.Skeleton
import proofs.«131423_j34316788695393_1_alg».proof.Proof.Gen.KernelIdeal.Launch
import proofs.«131423_j34316788695393_1_alg».proof.Proof.Gen.KernelIdeal.Points
import proofs.«131423_j34316788695393_1_alg».proof.Proof.Gen.KernelIdeal.Frame
import proofs.«131423_j34316788695393_1_alg».proof.Proof.Gen.ReferenceIdeal
import proofs.«131423_j34316788695393_1_alg».proof.Proof.Gen.Pre_finite_inputs
import proofs.«131423_j34316788695393_1_alg».proof.Proof.Gen.ReferenceIdeal.Run
import proofs.«131423_j34316788695393_1_alg».proof.Proof.Gen.ReferenceIdeal.Read
import proofs.«131423_j34316788695393_1_alg».proof.Proof.KernelRun
import proofs.«131423_j34316788695393_1_alg».proof.Proof.Stages
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: the reference's result function of the six arguments. The
    kernel's run ends at it by `Stages.result_eq`; the reference's run ends at its composed term, which is that
    function of its own arguments, and the two memories agree on the arguments. -/
theorem algebraic : Cert.algebraic_KernelIdeal_ReferenceIdeal := by
  intro m ρ m' ρ' _ hagree
  refine ⟨fun c => Cert.ReferenceIdeal.Read.val_main_v81 (F := Ideal)
      (Cert.KernelIdeal.Stages.X0 m c) (Cert.KernelIdeal.Stages.X1 m c) (Cert.KernelIdeal.Stages.X2 m c)
      (Cert.KernelIdeal.Stages.X3 m c) (Cert.KernelIdeal.Stages.X4 m c) (Cert.KernelIdeal.Stages.X5 m c), ?_, ?_⟩
  · exact (θ_run Cert.KernelIdeal.defs _ _).mono
      (fun r h c => ⟨(h c).1.trans (Cert.KernelIdeal.Stages.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v81_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
